-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x65544 : Shape := ⟨3, ![32, 16, 65544]⟩
abbrev S32x8 : Shape := ⟨2, ![32, 8]⟩
abbrev S8x16 : Shape := ⟨2, ![8, 16]⟩
abbrev S16 : Shape := ⟨1, ![16]⟩
abbrev S16x768 : Shape := ⟨2, ![16, 768]⟩
abbrev S768 : Shape := ⟨1, ![768]⟩
abbrev S_ : Shape := ⟨0, ![]⟩

class Facts : Prop where
  bcast_S_S32x16x65544 : S_.BroadcastsInDim S32x16x65544 (![] : Fin 0 → Fin S32x16x65544.rank)
  reducesTo_S32x16x65544_S_d0_1_2 : S32x16x65544.ReducesTo [0, 1, 2] S_
  h_S_ : 0 < S_.numel
  bcast_S_S32x8 : S_.BroadcastsInDim S32x8 (![] : Fin 0 → Fin S32x8.rank)
  reducesTo_S32x8_S_d0_1 : S32x8.ReducesTo [0, 1] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S16x768 : S_.BroadcastsInDim S16x768 (![] : Fin 0 → Fin S16x768.rank)
  reducesTo_S16x768_S_d0_1 : S16x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S16x768 .f32) (main_arg5 : FVec F S768 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x768 .f32 := Host.absf main_arg4
  let main_cst_6 : FVec F S_ .f32 := constant S_ .f32 0x7F800000#32
  let main_v20 : FVec F S16x768 .f32 := broadcastInDim S16x768 ![] bcast_S_S16x768 main_cst_6
  let main_v21 : IVec S16x768 1 := cmpf .olt main_v19 main_v20
  let main_c_7 : IVec S_ 1 := constantI S_ 1 1#1
  let main_v22 : IVec S_ 1 := (fun x v => Host.reduce IntOp.andi x v reducesTo_S16x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S32x16x65544 .f32) (main_arg1 : FVec F S32x8 .f32) (main_arg2 : FVec F S8x16 .f32) (main_arg3 : FVec F S16 .f32) (main_arg4 : FVec F S16x768 .f32) (main_arg5 : FVec F S768 .f32) : IVec S_ 1 :=
  let main_v0 : FVec F S32x16x65544 .f32 := Host.absf main_arg0
  let main_cst : FVec F S_ .f32 := constant S_ .f32 0x7F800000#32
  let main_v1 : FVec F S32x16x65544 .f32 := broadcastInDim S32x16x65544 ![] bcast_S_S32x16x65544 main_cst
  let main_v2 : IVec S32x16x65544 1 := cmpf .olt main_v0 main_v1
  let main_c : IVec S_ 1 := constantI S_ 1 1#1
  let main_v3 : IVec S_ 1 := (fun x v => Host.reduce IntOp.andi x v reducesTo_S32x16x65544_S_d0_1_2 h_S_) main_v2 main_c
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : IVec S_ 1 := andi main_v3 main_v7
  let main_v9 : FVec F S8x16 .f32 := Host.absf main_arg2
  let main_cst_2 : FVec F S_ .f32 := constant S_ .f32 0x7F800000#32
  let main_v10 : FVec F S8x16 .f32 := broadcastInDim S8x16 ![] bcast_S_S8x16 main_cst_2
  let main_v11 : IVec S8x16 1 := cmpf .olt main_v9 main_v10
  let main_c_3 : IVec S_ 1 := constantI S_ 1 1#1
  let main_v12 : IVec S_ 1 := (fun x v => Host.reduce IntOp.andi x v reducesTo_S8x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S32x16x65544 : Shape := ⟨3, ![32, 16, 65544]⟩
abbrev S32x8 : Shape := ⟨2, ![32, 8]⟩
abbrev S8x16 : Shape := ⟨2, ![8, 16]⟩
abbrev S16 : Shape := ⟨1, ![16]⟩
abbrev S16x768 : Shape := ⟨2, ![16, 768]⟩
abbrev S768 : Shape := ⟨1, ![768]⟩
abbrev S32x16 : Shape := ⟨2, ![32, 16]⟩
abbrev S1x16 : Shape := ⟨2, ![1, 16]⟩
abbrev S_ : Shape := ⟨0, ![]⟩
abbrev S32x768 : Shape := ⟨2, ![32, 768]⟩
abbrev S1x768 : Shape := ⟨2, ![1, 768]⟩
abbrev S32x48x16 : Shape := ⟨3, ![32, 48, 16]⟩
abbrev S32x16x48 : Shape := ⟨3, ![32, 16, 48]⟩
abbrev S32x16x65536 : Shape := ⟨3, ![32, 16, 65536]⟩
abbrev S1x16x65544 : Shape := ⟨3, ![1, 16, 65544]⟩
abbrev S1x16x48 : Shape := ⟨3, ![1, 16, 48]⟩
abbrev S1x16x65536 : Shape := ⟨3, ![1, 16, 65536]⟩
abbrev S16x48 : Shape := ⟨2, ![16, 48]⟩
abbrev S16x65536 : Shape := ⟨2, ![16, 65536]⟩
abbrev S16x16 : Shape := ⟨2, ![16, 16]⟩

abbrev nBuf : Space → Nat
  | .hbm => 24
  | .vmem => 6
  | .smem => 0
  | _ => 0

abbrev bufTy : (tb : Table) → Fin (tcTables nBuf tb) → BufTy
  | .hbm, ⟨0, _⟩ => ⟨S32x16x65544, .f32⟩
  | .hbm, ⟨1, _⟩ => ⟨S32x8, .f32⟩
  | .hbm, ⟨2, _⟩ => ⟨S8x16, .f32⟩
  | .hbm, ⟨3, _⟩ => ⟨S16, .f32⟩
  | .hbm, ⟨4, _⟩ => ⟨S16x768, .f32⟩
  | .hbm, ⟨5, _⟩ => ⟨S768, .f32⟩
  | .hbm, ⟨6, _⟩ => ⟨S32x16, .f32⟩
  | .hbm, ⟨7, _⟩ => ⟨S1x16, .f32⟩
  | .hbm, ⟨8, _⟩ => ⟨S32x16, .f32⟩
  | .hbm, ⟨9, _⟩ => ⟨S32x16, .f32⟩
  | .hbm, ⟨10, _⟩ => ⟨S_, .f32⟩
  | .hbm, ⟨11, _⟩ => ⟨S32x16, .f32⟩
  | .hbm, ⟨12, _⟩ => ⟨S32x16, .i1⟩
  | .hbm, ⟨13, _⟩ => ⟨S_, .f32⟩
  | .hbm, ⟨14, _⟩ => ⟨S32x16, .f32⟩
  | .hbm, ⟨15, _⟩ => ⟨S32x16, .f32⟩
  | .hbm, ⟨16, _⟩ => ⟨S32x16, .f32⟩
  | .hbm, ⟨17, _⟩ => ⟨S32x768, .f32⟩
  | .hbm, ⟨18, _⟩ => ⟨S1x768, .f32⟩
  | .hbm, ⟨19, _⟩ => ⟨S32x768, .f32⟩
  | .hbm, ⟨20, _⟩ => ⟨S32x768, .f32⟩
  | .hbm, ⟨21, _⟩ => ⟨S32x48x16, .f32⟩
  | .hbm, ⟨22, _⟩ => ⟨S32x16x48, .f32⟩
  | .hbm, ⟨23, _⟩ => ⟨S32x16x65536, .f32⟩
  | .local _ .vmem, ⟨0, _⟩ => ⟨S1x16x65544, .f32⟩
  | .local _ .vmem, ⟨1, _⟩ => ⟨S1x16x65544, .f32⟩
  | .local _ .vmem, ⟨2, _⟩ => ⟨S1x16x48, .f32⟩
  | .local _ .vmem, ⟨3, _⟩ => ⟨S1x16x48, .f32⟩
  | .local _ .vmem, ⟨4, _⟩ => ⟨S1x16x65536, .f32⟩
  | .local _ .vmem, ⟨5, _⟩ => ⟨S1x16x65536, .f32⟩
  | _, _ => ⟨S32x16x65544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x65544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S16_S1x16_1 : S16.BroadcastsInDim S1x16 (![1] : Fin 1 → Fin S1x16.rank)
  bcast_S1x16_S32x16_0_1 : S1x16.BroadcastsInDim S32x16 (![0, 1] : Fin 2 → Fin S32x16.rank)
  bcast_S_S32x16 : S_.BroadcastsInDim S32x16 (![] : Fin 0 → Fin S32x16.rank)
  bcast_S768_S1x768_1 : S768.BroadcastsInDim S1x768 (![1] : Fin 1 → Fin S1x768.rank)
  bcast_S1x768_S32x768_0_1 : S1x768.BroadcastsInDim S32x768 (![0, 1] : Fin 2 → Fin S32x768.rank)
  shapeCasts_S32x768_S32x48x16 : S32x768.ShapeCasts S32x48x16
  transposes_S32x48x16_S32x16x48_0_2_1 : S32x48x16.Transposes [0, 2, 1] S32x16x48
  inb_S1x16x48_S1x16x48_0_0_0 : ∀ a, (![0, 0, 0] : Fin 3 → Nat) a + S1x16x48.size a ≤ S1x16x48.size a
  h_S1x16x48 : 0 < S1x16x48.numel
  shapeCasts_S1x16x48_S16x48 : S1x16x48.ShapeCasts S16x48
  inb_S1x16x65544_S1x16x65536_0_0_8 : ∀ a, (![0, 0, 8] : Fin 3 → Nat) a + S1x16x65536.size a ≤ S1x16x65544.size a
  h_S1x16x65536 : 0 < S1x16x65536.numel
  shapeCasts_S1x16x65536_S16x65536 : S1x16x65536.ShapeCasts S16x65536
  slices_S16x48_o0_0_S16x16 : S16x48.Slices ![0, 0] S16x16
  inb_S1x16x65544_S1x16x65536_0_0_4 : ∀ a, (![0, 0, 4] : Fin 3 → Nat) a + S1x16x65536.size a ≤ S1x16x65544.size a
  slices_S16x48_o0_16_S16x16 : S16x48.Slices ![0, 16] S16x16
  inb_S1x16x65544_S1x16x65536_0_0_0 : ∀ a, (![0, 0, 0] : Fin 3 → Nat) a + S1x16x65536.size a ≤ S1x16x65544.size a
  slices_S16x48_o0_32_S16x16 : S16x48.Slices ![0, 32] S16x16
  inb_S1x16x65536_S1x16x65536_0_0_0 : ∀ a, (![0, 0, 0] : Fin 3 → Nat) a + S1x16x65536.size a ≤ S1x16x65536.size a
  shapeCasts_S16x65536_S1x16x65536 : S16x65536.ShapeCasts S1x16x65536
  dot_S32x8_S8x16_S32x16_1_0_0_1_n_n_wf : DotDims.WF S32x8 S8x16 S32x16 [1] [0] [0] [1] [] []
  dot_S32x16_S16x768_S32x768_1_0_0_1_n_n_wf : DotDims.WF S32x16 S16x768 S32x768 [1] [0] [0] [1] [] []
  dot_S16x16_S16x65536_S16x65536_1_0_0_1_n_n_wf : DotDims.WF S16x16 S16x65536 S16x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x65544.size a ≤ S32x16x65544.size a
  hwx0_0 : ∀ i : grid0.Coords, EltTy.bits .f32 = 32 ∨ (Rect.block (s := S32x16x65544) S1x16x65544.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x48.size a ≤ S32x16x48.size a
  hwx0_1 : ∀ i : grid0.Coords, EltTy.bits .f32 = 32 ∨ (Rect.block (s := S32x16x48) S1x16x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x65536.size a ≤ S32x16x65536.size a
  hwx0_2 : ∀ i : grid0.Coords, EltTy.bits .f32 = 32 ∨ (Rect.block (s := S32x16x65536) S1x16x65536.size (cc0_transform_2 i) (hinb0_2 i)).WholeWords (EltTy.packing .f32)

variable [Facts₀]

def dot_S32x8_S8x16_S32x16_1_0_0_1_n_n : DotDims S32x8 S8x16 S32x16 where
  lhsContracting := [1]
  rhsContracting := [0]
  lhsNonContracting := [0]
  rhsNonContracting := [1]
  lhsBatch := []
  rhsBatch := []
  wf := dot_S32x8_S8x16_S32x16_1_0_0_1_n_n_wf
def dot_S32x16_S16x768_S32x768_1_0_0_1_n_n : DotDims S32x16 S16x768 S32x768 where
  lhsContracting := [1]
  rhsContracting := [0]
  lhsNonContracting := [0]
  rhsNonContracting := [1]
  lhsBatch := []
  rhsBatch := []
  wf := dot_S32x16_S16x768_S32x768_1_0_0_1_n_n_wf
def dot_S16x16_S16x65536_S16x65536_1_0_0_1_n_n : DotDims S16x16 S16x65536 S16x65536 where
  lhsContracting := [1]
  rhsContracting := [0]
  lhsNonContracting := [0]
  rhsNonContracting := [1]
  lhsBatch := []
  rhsBatch := []
  wf := dot_S16x16_S16x65536_S16x65536_1_0_0_1_n_n_wf

abbrev win0_0 : Pipeline.Window sig grid0 :=
  Pipeline.Window.ofSpec (Memref.whole main_arg0) S1x16x65544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x16x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x16x65536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x16x65544 : Shape := ⟨3, ![32, 16, 65544]⟩
abbrev S32x8 : Shape := ⟨2, ![32, 8]⟩
abbrev S8x16 : Shape := ⟨2, ![8, 16]⟩
abbrev S16 : Shape := ⟨1, ![16]⟩
abbrev S16x768 : Shape := ⟨2, ![16, 768]⟩
abbrev S768 : Shape := ⟨1, ![768]⟩
abbrev S32x16 : Shape := ⟨2, ![32, 16]⟩
abbrev S1x16 : Shape := ⟨2, ![1, 16]⟩
abbrev S_ : Shape := ⟨0, ![]⟩
abbrev S32x768 : Shape := ⟨2, ![32, 768]⟩
abbrev S1x768 : Shape := ⟨2, ![1, 768]⟩
abbrev S32x48x16 : Shape := ⟨3, ![32, 48, 16]⟩
abbrev S32x16x65536 : Shape := ⟨3, ![32, 16, 65536]⟩
abbrev S32x48x65536 : Shape := ⟨3, ![32, 48, 65536]⟩

abbrev nBuf : Space → Nat
  | .hbm => 27
  | .vmem => 0
  | .smem => 0
  | _ => 0

abbrev bufTy : (tb : Table) → Fin (tcTables nBuf tb) → BufTy
  | .hbm, ⟨0, _⟩ => ⟨S32x16x65544, .f32⟩
  | .hbm, ⟨1, _⟩ => ⟨S32x8, .f32⟩
  | .hbm, ⟨2, _⟩ => ⟨S8x16, .f32⟩
  | .hbm, ⟨3, _⟩ => ⟨S16, .f32⟩
  | .hbm, ⟨4, _⟩ => ⟨S16x768, .f32⟩
  | .hbm, ⟨5, _⟩ => ⟨S768, .f32⟩
  | .hbm, ⟨6, _⟩ => ⟨S32x16, .f32⟩
  | .hbm, ⟨7, _⟩ => ⟨S1x16, .f32⟩
  | .hbm, ⟨8, _⟩ => ⟨S32x16, .f32⟩
  | .hbm, ⟨9, _⟩ => ⟨S32x16, .f32⟩
  | .hbm, ⟨10, _⟩ => ⟨S_, .f32⟩
  | .hbm, ⟨11, _⟩ => ⟨S32x16, .f32⟩
  | .hbm, ⟨12, _⟩ => ⟨S32x16, .i1⟩
  | .hbm, ⟨13, _⟩ => ⟨S_, .f32⟩
  | .hbm, ⟨14, _⟩ => ⟨S32x16, .f32⟩
  | .hbm, ⟨15, _⟩ => ⟨S32x16, .f32⟩
  | .hbm, ⟨16, _⟩ => ⟨S32x16, .f32⟩
  | .hbm, ⟨17, _⟩ => ⟨S32x768, .f32⟩
  | .hbm, ⟨18, _⟩ => ⟨S1x768, .f32⟩
  | .hbm, ⟨19, _⟩ => ⟨S32x768, .f32⟩
  | .hbm, ⟨20, _⟩ => ⟨S32x768, .f32⟩
  | .hbm, ⟨21, _⟩ => ⟨S32x48x16, .f32⟩
  | .hbm, ⟨22, _⟩ => ⟨S32x16x65536, .f32⟩
  | .hbm, ⟨23, _⟩ => ⟨S32x16x65536, .f32⟩
  | .hbm, ⟨24, _⟩ => ⟨S32x16x65536, .f32⟩
  | .hbm, ⟨25, _⟩ => ⟨S32x48x65536, .f32⟩
  | .hbm, ⟨26, _⟩ => ⟨S32x16x65536, .f32⟩
  | _, _ => ⟨S32x16x65544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S32x16_0_1 : S1x16.BroadcastsInDim S32x16 (![0, 1] : Fin 2 → Fin S32x16.rank)
  bcast_S_S32x16 : S_.BroadcastsInDim S32x16 (![] : Fin 0 → Fin S32x16.rank)
  bcast_S768_S1x768_1 : S768.BroadcastsInDim S1x768 (![1] : Fin 1 → Fin S1x768.rank)
  bcast_S1x768_S32x768_0_1 : S1x768.BroadcastsInDim S32x768 (![0, 1] : Fin 2 → Fin S32x768.rank)
  shapeCasts_S32x768_S32x48x16 : S32x768.ShapeCasts S32x48x16
  slices_S32x16x65544_S32x16x65536_0_0_8 : S32x16x65544.Slices ![0, 0, 8] S32x16x65536
  slices_S32x16x65544_S32x16x65536_0_0_4 : S32x16x65544.Slices ![0, 0, 4] S32x16x65536
  slices_S32x16x65544_S32x16x65536_0_0_0 : S32x16x65544.Slices ![0, 0, 0] S32x16x65536
  concatenates_S32x16x65536_S32x16x65536_S32x16x65536_S32x48x65536_d1 : Shape.Concatenates [S32x16x65536, S32x16x65536, S32x16x65536] S32x48x65536 1
  dot_S32x8_S8x16_S32x16_1_0_0_1_n_n_wf : DotDims.WF S32x8 S8x16 S32x16 [1] [0] [0] [1] [] []
  dot_S32x16_S16x768_S32x768_1_0_0_1_n_n_wf : DotDims.WF S32x16 S16x768 S32x768 [1] [0] [0] [1] [] []
  dot_S32x48x16_S32x48x65536_S32x16x65536_1_1_2_2_0_0_wf : DotDims.WF S32x48x16 S32x48x65536 S32x16x65536 [1] [1] [2] [2] [0] [0]

variable [Facts₀]

def dot_S32x8_S8x16_S32x16_1_0_0_1_n_n : DotDims S32x8 S8x16 S32x16 where
  lhsContracting := [1]
  rhsContracting := [0]
  lhsNonContracting := [0]
  rhsNonContracting := [1]
  lhsBatch := []
  rhsBatch := []
  wf := dot_S32x8_S8x16_S32x16_1_0_0_1_n_n_wf
def dot_S32x16_S16x768_S32x768_1_0_0_1_n_n : DotDims S32x16 S16x768 S32x768 where
  lhsContracting := [1]
  rhsContracting := [0]
  lhsNonContracting := [0]
  rhsNonContracting := [1]
  lhsBatch := []
  rhsBatch := []
  wf := dot_S32x16_S16x768_S32x768_1_0_0_1_n_n_wf
def dot_S32x48x16_S32x48x65536_S32x16x65536_1_1_2_2_0_0 : DotDims S32x48x16 S32x48x65536 S32x16x65536 where
  lhsContracting := [1]
  rhsContracting := [1]
  lhsNonContracting := [2]
  rhsNonContracting := [2]
  lhsBatch := [0]
  rhsBatch := [0]
  wf := dot_S32x48x16_S32x48x65536_S32x16x65536_1_1_2_2_0_0_wf

class Facts : Prop extends Facts₀ where

variable [Facts]
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.ThreeTaps.lean ====
/-
  A dilated causal convolution with three taps, as ONE function of the signal and of per-sample weights.

  For sample b, output channel o and time t

      y(b, o, t) = Σ_{s < 3} Σ_{c < 16} w(b, 16 s + c, o) · x(b, c, (8 − 4 s) + t):

  tap s reads the signal 8 − 4 s samples ahead of t and meets rows 16 s … 16 s + 15 of sample b's 48 × 16 weight
  matrix. The same number is ONE sum over the 48 rows against the three shifted copies of the signal stacked along
  the channel axis, because a sum of 48 terms is the sum of its three consecutive blocks of 16
  (sum_three_blocks). That regrouping holds in every commutative additive monoid, so it holds on the extended reals
  whatever infinities the terms take: no finiteness of the inputs is used anywhere.
-/
import Idealize.ShloMosaic.PureOps.Ideal
import Idealize.ShloMosaic.Lib.ValueIdx

noncomputable section

open scoped BigOperators

namespace Cert.ThreeTaps

open Idealize.ShloMosaic Idealize.ShloMosaic.ValueIdx

/-- The signal: 32 samples, 16 channels, 65544 time steps (65536 outputs and 8 steps of history). -/
abbrev SX : Shape := ⟨3, ![32, 16, 65544]⟩
/-- The weights: per sample a 48 × 16 matrix, rows 16 s … 16 s + 15 belonging to tap s. -/
abbrev SW : Shape := ⟨3, ![32, 48, 16]⟩
/-- The three shifted signals stacked along the channel axis. -/
abbrev SC : Shape := ⟨3, ![32, 48, 65536]⟩
/-- The result. -/
abbrev SY : Shape := ⟨3, ![32, 16, 65536]⟩

/-- Row s + c of the weight matrix: channel c of the tap whose rows start at s. -/
def row (s : Nat) (hs : s ≤ 32) (c : Fin 16) : Fin 48 := ⟨s + c.val, by omega⟩

/-- Time step d + t of the signal: what a tap looking d steps ahead reads for output time t. -/
def ahead (d : Nat) (hd : d ≤ 8) (t : Fin 65536) : Fin 65544 := ⟨d + t.val, by omega⟩

theorem row_val (s : Nat) (hs : s ≤ 32) (c : Fin 16) : (row s hs c).val = s + c.val := rfl
theorem ahead_val (d : Nat) (hd : d ≤ 8) (t : Fin 65536) : (ahead d hd t).val = d + t.val := rfl

/-- A sum over 48 terms is the sum of its three consecutive blocks of 16. -/
theorem sum_three_blocks {M : Type*} [AddCommMonoid M] (f : Fin 48 → M) :
    ∑ k, f k = (∑ c : Fin 16, f (row 0 (by omega) c)) + (∑ c : Fin 16, f (row 16 (by omega) c))
      + ∑ c : Fin 16, f (row 32 (by omega) c) := by
  rw [← Equiv.sum_comp (finCongr (show 16 + 16 + 16 = 48 from rfl)) f, Fin.sum_univ_add, Fin.sum_univ_add]
  refine congrArg₂ (· + ·) (congrArg₂ (· + ·) ?_ ?_) ?_
  · exact Finset.sum_congr rfl fun c _ => congrArg f (Fin.ext (by simp [row]))
  · exact Finset.sum_congr rfl fun c _ => congrArg f (Fin.ext (by simp [row]; omega))
  · exact Finset.sum_congr rfl fun c _ => congrArg f (Fin.ext (by simp [row]))

/-- One tap: the 16 channels of the signal d steps ahead of t against rows s … s + 15 of the weights. -/
def tap (x : SX.Idx → EReal) (w : SW.Idx → EReal) (s : Nat) (hs : s ≤ 32) (d : Nat) (hd : d ≤ 8)
    (b : Fin 32) (o : Fin 16) (t : Fin 65536) : EReal :=
  ∑ c : Fin 16, w (ix3 b (row s hs c) o) * x (ix3 b c (ahead d hd t))

/-- The convolution at sample b, output channel o, time t: the tap 8 steps ahead on rows 0–15, the tap 4 steps
    ahead on rows 16–31, the tap at t itself on rows 32–47. -/
def convAt (x : SX.Idx → EReal) (w : SW.Idx → EReal) (b : Fin 32) (o : Fin 16) (t : Fin 65536) : EReal :=
  tap x w 0 (by omega) 8 (by omega) b o t + tap x w 16 (by omega) 4 (by omega) b o t
    + tap x w 32 (by omega) 0 (by omega) b o t

/-- The convolution as a whole array. -/
def conv (x : SX.Idx → EReal) (w : SW.Idx → EReal) : SY.Idx → EReal := fun i => convAt x w (i 0) (i 1) (i 2)

theorem conv_apply (x : SX.Idx → EReal) (w : SW.Idx → EReal) (b : Fin 32) (o : Fin 16) (t : Fin 65536) :
    conv x w (ix3 b o t) = convAt x w b o t := rfl

/-- ONE sum over the 48 rows against a stacked array X whose rows 0–15, 16–31, 32–47 are the signal 8, 4 and 0
    steps ahead is the convolution. -/
theorem stacked_eq (x : SX.Idx → EReal) (w : SW.Idx → EReal) (X : SC.Idx → EReal)
    (h8 : ∀ (b : Fin 32) (c : Fin 16) (t : Fin 65536), X (ix3 b (row 0 (by omega) c) t) = x (ix3 b c (ahead 8 (by omega) t)))
    (h4 : ∀ (b : Fin 32) (c : Fin 16) (t : Fin 65536), X (ix3 b (row 16 (by omega) c) t) = x (ix3 b c (ahead 4 (by omega) t)))
    (h0 : ∀ (b : Fin 32) (c : Fin 16) (t : Fin 65536), X (ix3 b (row 32 (by omega) c) t) = x (ix3 b c (ahead 0 (by omega) t)))
    (b : Fin 32) (o : Fin 16) (t : Fin 65536) :
    ∑ k : Fin 48, w (ix3 b k o) * X (ix3 b k t) = convAt x w b o t := by
  rw [sum_three_blocks]
  unfold convAt tap
  refine congrArg₂ (· + ·) (congrArg₂ (· + ·) ?_ ?_) ?_
  · exact Finset.sum_congr rfl fun c _ => by rw [h8]
  · exact Finset.sum_congr rfl fun c _ => by rw [h4]
  · exact Finset.sum_congr rfl fun c _ => by rw [h0]

end Cert.ThreeTaps

end
-- ==== Proof.TapBlock.lean ====
/-
  What the kernel's body computes for one sample, entry by entry.

  The body holds the sample's transposed weight matrix (16 output channels × 48 rows, behind a leading axis of
  extent one) and three views of the sample's signal, each 16 channels × 65536 time steps: the signal from step 8,
  from step 4 and from step 0. It cuts the weights into three 16 × 16 blocks of columns, multiplies each block with its
  view on the matrix unit from a zero accumulator, and adds the three products onto a zero array. At output channel o
  and time t that is

      (0 + Σ_c W(o, c) · A(c, t)) + Σ_c W(o, 16 + c) · B(c, t) + Σ_c W(o, 32 + c) · C(c, t)

  on the extended reals, where 0 + a = a (tap_apply: one product; stored_apply: the three summed).
-/
import proofs.«135236_j36833639531048_2_alg».proof.Proof.Gen.KernelIdeal.Skeleton
import proofs.«135236_j36833639531048_2_alg».proof.Proof.LibPlainDot
import proofs.«135236_j36833639531048_2_alg».proof.Proof.ThreeTaps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.TapBlock

open Cert.KernelIdeal Cert.KernelIdeal.Gen Idealize.ShloMosaic Idealize.ShloMosaic.ValueIdx Cert.ThreeTaps Cert.Lib.PlainDot

/-- One tap: columns s … s + 15 of the weights against a 16 × 65536 view of the signal, from the zero accumulator, at
    output channel o and time t: the sum over the 16 channels. -/
theorem tap_apply (v0 : FVec Ideal S1x16x48 .f32) (v : FVec Ideal S1x16x65536 .f32) (s : Nat) (hs : s ≤ 32)
    (sl : S16x48.Slices ![0, s] S16x16) (o : Fin 16) (t : Fin 65536) :
    matmul dot_S16x16_S16x65536_S16x65536_1_0_0_1_n_n none
        (extractStridedSlice S16x16 ![0, s] (shapeCast S16x48 v0 shapeCasts_S1x16x48_S16x48) sl)
        (shapeCast S16x65536 v shapeCasts_S1x16x65536_S16x65536) (constant S16x65536 .f32 0x00000000#32) (ix2 o t)
      = ∑ c : Fin 16, v0 (ix3 (0 : Fin 1) o (row s hs c)) * v (ix3 (0 : Fin 1) c t) := by
  refine (matmul_plain_zero_apply none _ _ o t).trans ?_
  refine Finset.sum_congr rfl fun c _ => ?_
  rw [slice2_axis1_apply s _ sl o c (row s hs c) rfl, shapeCast_1ab_ab_apply, shapeCast_1ab_ab_apply]

/-- What the body stores, at output channel o and time t: the three taps' sums. -/
theorem stored_apply (v0 : FVec Ideal S1x16x48 .f32) (v3 v8 v13 : FVec Ideal S1x16x65536 .f32) (o : Fin 16) (t : Fin 65536) :
    k0_pay1 (F := Ideal) v0 v3 v8 v13 (ix3 (0 : Fin 1) o t)
      = (∑ c : Fin 16, v0 (ix3 (0 : Fin 1) o (row 0 (by omega) c)) * v3 (ix3 (0 : Fin 1) c t))
        + (∑ c : Fin 16, v0 (ix3 (0 : Fin 1) o (row 16 (by omega) c)) * v8 (ix3 (0 : Fin 1) c t))
        + ∑ c : Fin 16, v0 (ix3 (0 : Fin 1) o (row 32 (by omega) c)) * v13 (ix3 (0 : Fin 1) c t) := by
  unfold k0_pay1
  refine (shapeCast_ab_1ab_apply _ _ (0 : Fin 1) o t).trans ?_
  rw [addf_apply, addf_apply, addf_apply, broadcast_apply,
    tap_apply v0 v3 0 (by omega) _ o t, tap_apply v0 v8 16 (by omega) _ o t, tap_apply v0 v13 32 (by omega) _ o t]
  show Ideal.ofBits .f32 0x00000000#32 + _ + _ + _ = _
  rw [Ideal.ofBits_zero_f32, zero_add]

end Cert.KernelIdeal.TapBlock

end
-- ==== Proof.BodyBlock.lean ====
/-
  The output staging buffer after the body, entry by entry, as a function of the two staged blocks.

  The body loads the weight block whole, loads the signal block three times — 65536 consecutive time steps starting at
  step 8, at step 4 and at step 0 (ahead_load: such a load at channel c and time q is the block at channel c and time
  d + q) — and stores its result over the whole output buffer. So entry (o, q) of the buffer is the three taps' sums of
  the staged blocks themselves (out_apply).
-/
import proofs.«135236_j36833639531048_2_alg».proof.Proof.Gen.KernelIdeal.Frame
import proofs.«135236_j36833639531048_2_alg».proof.Proof.TapBlock

noncomputable section

open scoped BigOperators

namespace Cert.KernelIdeal.BodyBlock

open Cert.KernelIdeal Cert.KernelIdeal.Gen Idealize.ShloMosaic Idealize.ShloMosaic.ValueIdx Cert.ThreeTaps
open Cert.KernelIdeal.TapBlock

/-- The zero offsets of a whole-buffer access. -/
theorem zeros3 : (![0, 0, 0] : Fin 3 → Nat) = fun _ => 0 := funext fun a => by fin_cases a <;> rfl

/-- 65536 consecutive time steps of the signal block from step d, read at channel c and time q: the block at
    channel c and time d + q. -/
theorem ahead_load (x0 : Vec Ideal S1x16x65544 .f32) (d : Nat) (hd : d ≤ 8)
    (inb : ∀ a, (![0, 0, d] : Fin 3 → Nat) a + S1x16x65536.size a ≤ S1x16x65544.size a) (c : Fin 16) (q : Fin 65536) :
    View.ld x0 (Rect.unit (s := S1x16x65544) ![0, 0, d] S1x16x65536.size inb) (ix3 (0 : Fin 1) c q)
      = x0 (ix3 (0 : Fin 1) c (ahead d hd q)) := by
  show x0 ((Rect.unit (s := S1x16x65544) ![0, 0, d] S1x16x65536.size inb).emb (ix3 (0 : Fin 1) c q)) = _
  refine congrArg x0 (funext fun a => Fin.ext ?_)
  rw [Rect.emb_apply]
  match a with
  | ⟨0, _⟩ => show 0 + 1 * 0 = 0; rfl
  | ⟨1, _⟩ => show 0 + 1 * c.val = c.val; omega
  | ⟨2, _⟩ => show d + 1 * q.val = d + q.val; omega

/-- Entry (o, q) of the output buffer after the body, from the staged signal block x0 and weight block x1. -/
theorem out_apply (x0 : Vec Ideal S1x16x65544 .f32) (x1 : Vec Ideal S1x16x48 .f32) (o : Fin 16) (q : Fin 65536) :
    out0_2 (F := Ideal) x0 x1 (ix3 (0 : Fin 1) o q)
      = (∑ c : Fin 16, x1 (ix3 (0 : Fin 1) o (row 0 (by omega) c)) * x0 (ix3 (0 : Fin 1) c (ahead 8 (by omega) q)))
        + (∑ c : Fin 16, x1 (ix3 (0 : Fin 1) o (row 16 (by omega) c)) * x0 (ix3 (0 : Fin 1) c (ahead 4 (by omega) q)))
        + ∑ c : Fin 16, x1 (ix3 (0 : Fin 1) o (row 32 (by omega) c)) * x0 (ix3 (0 : Fin 1) c (ahead 0 (by omega) q)) := by
  unfold out0_2
  rw [View.canon_unit_zero zeros3]
  simp only [View.ld_unit_zero (S := S1x16x48) zeros3]
  refine (stored_apply _ _ _ _ o q).trans ?_
  refine congrArg₂ (· + ·) (congrArg₂ (· + ·) ?_ ?_) ?_
  · exact Finset.sum_congr rfl fun c _ =>
      congrArg (fun y => x1 (ix3 (0 : Fin 1) o (row 0 (by omega) c)) * y) (ahead_load x0 8 (by omega) _ c q)
  · exact Finset.sum_congr rfl fun c _ =>
      congrArg (fun y => x1 (ix3 (0 : Fin 1) o (row 16 (by omega) c)) * y) (ahead_load x0 4 (by omega) _ c q)
  · exact Finset.sum_congr rfl fun c _ =>
      congrArg (fun y => x1 (ix3 (0 : Fin 1) o (row 32 (by omega) c)) * y) (ahead_load x0 0 (by omega) _ c q)

end Cert.KernelIdeal.BodyBlock

end
-- ==== Proof.Weights.lean ====
/-
  The weights the kernel's region is entered with.

  Before the region the kernel's program computes the per-sample weights from the five small arguments by the very
  operations the reference applies to them (two small matrix products with bias, a leaky rectifier, a reshape to
  48 × 16 per sample) and then transposes each sample's matrix to 16 × 48. So the array the region's second window
  stages is the transpose of the reference's own weights term, and entry (b, o, k) of it is the weights' entry
  (b, k, o). How the weights come from the arguments is never opened: both programs carry the same chain.
-/
import proofs.«135236_j36833639531048_2_alg».proof.Proof.Gen.KernelIdeal.Frame
import proofs.«135236_j36833639531048_2_alg».proof.Proof.Gen.ReferenceIdeal.Read
import proofs.«135236_j36833639531048_2_alg».proof.Proof.ThreeTaps
import Idealize.ShloMosaic.Lib.StableHlo.Run
import Idealize.ShloMosaic.Lib.ValueIdx
import Idealize.ShloMosaic.Lib.ValueLayout

noncomputable section

namespace Cert.KernelIdeal.Weights

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The per-sample weights as a function of the five small arguments as launched: the reference's own stage. -/
def weights (c : Dev nD) : Cert.ThreeTaps.SW.Idx → EReal :=
  Cert.ReferenceIdeal.Read.val_main_v13 (F := Ideal) (m ((c : Thread nD τ).loc main_arg1)) (m ((c : Thread nD τ).loc main_arg2))
    (m ((c : Thread nD τ).loc main_arg3)) (m ((c : Thread nD τ).loc main_arg4)) (m ((c : Thread nD τ).loc main_arg5))

/-- The array the second window stages is the weights, each sample's matrix transposed. -/
theorem staged_eq (c : Dev nD) :
    (V m c main_v14 : S32x16x48.Idx → EReal)
      = transpose S32x16x48 [0, 2, 1] (weights m c) transposes_S32x48x16_S32x16x48_0_2_1 := by
  dsimp only [V]
  simp only [hostOps0, hostOps0_1, hostOps0_2, List.flatten_cons, List.flatten_nil, List.append_nil, List.cons_append,
    List.nil_append]
  after_results
  rfl

/-- Entry (b, o, k) of the staged array is the weights' entry (b, k, o). -/
theorem staged_apply (c : Dev nD) (b : Fin 32) (o : Fin 16) (k : Fin 48) :
    (V m c main_v14 : S32x16x48.Idx → EReal) (ix3 b o k) = weights m c (ix3 b k o) := by
  rw [staged_eq]
  exact transpose_ix3_021_apply _ _ b o k

end Cert.KernelIdeal.Weights

end
-- ==== Proof.ConvValue.lean ====
/-
  The kernel's result array is the convolution.

  The grid has one point per sample. At point t every window's block is sample t whole: the signal block is
  x(t, ·, ·), the weight block is the transposed weights of sample t, and the output block is y(t, ·, ·) (idx_facts:
  the three index maps send t to block (t, 0, 0); a block's element sits at block index × block size + its own
  coordinate). So what point t writes back — the three taps' sums of the staged blocks — is block t of the convolution
  of the signal with the weights (flushed_eq), the 32 blocks cover the result array (cover: sample b's entries lie in
  point b's block), and the array therefore ends holding the convolution (final, run).
-/
import proofs.«135236_j36833639531048_2_alg».proof.Proof.Gen.KernelIdeal.Value
import proofs.«135236_j36833639531048_2_alg».proof.Proof.BodyBlock
import proofs.«135236_j36833639531048_2_alg».proof.Proof.Weights

noncomputable section

open scoped BigOperators

namespace Cert.KernelIdeal.ConvValue

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)
open Cert.ThreeTaps Cert.KernelIdeal.Weights Cert.KernelIdeal.BodyBlock

variable (m : (ℓ : Loc nD τ sig) → Buf (Elt Ideal) ℓ) (ρ : Dev nD → PrngReg)

/-- The sample a grid point works on. -/
def sample (t : Fin cfg0.N) : Fin 32 := ⟨t.val, lt_of_lt_of_eq t.isLt N_0⟩

theorem sample_val (t : Fin cfg0.N) : (sample t).val = t.val := rfl

/-- The three index maps, decided over the 32 points: point t's block is (t, 0, 0) in every window. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The signal block at point t is sample t of the signal as launched. -/
theorem signal_block (c : Dev nD) (t : Fin cfg0.N) (ch : Fin 16) (l : Fin 65544) :
    iblk m c 0 t (ix3 (0 : Fin 1) ch l) = m ((c : Thread nD τ).loc main_arg0) (ix3 (sample t) ch l) := by
  obtain ⟨e0, e1, e2, -⟩ := idx_facts t
  refine Eq.trans ?_ (congrFun (V_main_arg0 m c) _)
  show V m c main_arg0 (((cfg0.win 0).blk t).view.emb (ix3 (0 : Fin 1) ch l)) = V m c main_arg0 (ix3 (sample t) ch l)
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 16 + 1 * ch.val = ch.val; omega
  | ⟨2, _⟩ => show win0_0.index t (2 : Fin 3) * 65544 + 1 * l.val = l.val; omega

/-- The weight block at point t is sample t's weights, transposed. -/
theorem weight_block (c : Dev nD) (t : Fin cfg0.N) (o : Fin 16) (k : Fin 48) :
    iblk m c 1 t (ix3 (0 : Fin 1) o k) = weights m c (ix3 (sample t) k o) := by
  obtain ⟨-, -, -, e0, e1, e2, -⟩ := idx_facts t
  refine Eq.trans ?_ (staged_apply m c (sample t) o k)
  show V m c main_v14 (((cfg0.win 1).blk t).view.emb (ix3 (0 : Fin 1) o k)) = V m c main_v14 (ix3 (sample t) o k)
  refine congrArg (V m c main_v14) (funext fun a => Fin.ext ?_)
  match a with
  | ⟨0, _⟩ => show win0_1.index t (0 : Fin 3) * 1 + 1 * 0 = t.val; omega
  | ⟨1, _⟩ => show win0_1.index t (1 : Fin 3) * 16 + 1 * o.val = o.val; omega
  | ⟨2, _⟩ => show win0_1.index t (2 : Fin 3) * 48 + 1 * k.val = k.val; omega

/-- Entry (o, q) of the output block at point t is entry (t, o, q) of the result array. -/
theorem out_index (t : Fin cfg0.N) (o : Fin 16) (q : Fin 65536) :
    ((cfg0.win 2).blk t).view.emb (ix3 (0 : Fin 1) o q) = (ix3 (sample t) o q : S32x16x65536.Idx) := by
  obtain ⟨-, -, -, -, -, -, e0, e1, e2⟩ := idx_facts t
  funext a
  apply Fin.ext
  match a with
  | ⟨0, _⟩ => show win0_2.index t (0 : Fin 3) * 1 + 1 * 0 = t.val; omega
  | ⟨1, _⟩ => show win0_2.index t (1 : Fin 3) * 16 + 1 * o.val = o.val; omega
  | ⟨2, _⟩ => show win0_2.index t (2 : Fin 3) * 65536 + 1 * q.val = q.val; omega

/-- WHAT POINT t WRITES BACK is block t of the convolution of the signal as launched with the weights. -/
theorem flushed_eq (c : Dev nD) (t : Fin cfg0.N) :
    (dats m 0 c).flushed 2 t
      = ((cfg0.win 2).blk t).view.read (Elt Ideal) (conv (m ((c : Thread nD τ).loc main_arg0)) (weights m c)) := by
  rw [flushed2]
  funext (j : S1x16x65536.Idx)
  obtain ⟨u, o, q, rfl⟩ : ∃ (u : Fin 1) (o : Fin 16) (q : Fin 65536), j = ix3 u o q := ⟨j 0, j 1, j 2, eq_ix3 j⟩
  obtain rfl : u = 0 := Subsingleton.elim _ _
  show out0_2 (iblk m c 0 t) (iblk m c 1 t) (ix3 (0 : Fin 1) o q)
    = conv (m ((c : Thread nD τ).loc main_arg0)) (weights m c) (((cfg0.win 2).blk t).view.emb (ix3 (0 : Fin 1) o q))
  refine (out_apply (iblk m c 0 t) (iblk m c 1 t) o q).trans ?_
  rw [out_index t o q, conv_apply]
  unfold convAt tap
  refine congrArg₂ (· + ·) (congrArg₂ (· + ·) ?_ ?_) ?_
  · exact Finset.sum_congr rfl fun ch _ => congrArg₂ (· * ·) (weight_block m c t o _) (signal_block m c t ch _)
  · exact Finset.sum_congr rfl fun ch _ => congrArg₂ (· * ·) (weight_block m c t o _) (signal_block m c t ch _)
  · exact Finset.sum_congr rfl fun ch _ => congrArg₂ (· * ·) (weight_block m c t o _) (signal_block m c t ch _)

/-- An index of the result array is in point t's block iff each coordinate is in the block's range on its axis. -/
theorem mem_blk (t : Fin cfg0.N) (i : S32x16x65536.Idx) :
    i ∈ ((cfg0.win 2).blk t).view.set ↔ ∀ a : Fin 3, win0_2.index t a * S1x16x65536.size a ≤ (i a).val
      ∧ (i a).val < win0_2.index t a * S1x16x65536.size a + S1x16x65536.size a := by
  show i ∈ ((View.whole main_v15).slice (win0_2.rect t)).set ↔ _
  rw [View.set_slice_whole, Rect.mem_set_unit]
  exact Iff.rfl

/-- Every entry of the result array is in some point's block: entry (b, o, q) in point b's. -/
theorem cover (i : S32x16x65536.Idx) :
    ∃ t : Fin cfg0.N, (cfg0.win 2).flush t = true ∧ i ∈ ((cfg0.win 2).blk t).view.set := by
  have h0 : (i 0).val < 32 := (i 0).isLt
  have h1 : (i 1).val < 16 := (i 1).isLt
  have h2 : (i 2).val < 65536 := (i 2).isLt
  obtain ⟨t, ht⟩ : ∃ t : Fin cfg0.N, t.val = (i 0).val := ⟨⟨(i 0).val, lt_of_lt_of_eq h0 N_0.symm⟩, rfl⟩
  obtain ⟨-, -, -, -, -, -, e0, e1, e2⟩ := idx_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 16 ≤ (i 1).val ∧ (i 1).val < win0_2.index t (1 : Fin 3) * 16 + 16
    omega
  | ⟨2, _⟩ =>
    show win0_2.index t (2 : Fin 3) * 65536 ≤ (i 2).val ∧ (i 2).val < win0_2.index t (2 : Fin 3) * 65536 + 65536
    omega

/-- THE RESULT ARRAY after the run: the convolution of the signal as launched with the weights. -/
theorem final (c : Dev nD) :
    (dats m 0 c).arrAt 2 cfg0.N = conv (m ((c : Thread nD τ).loc main_arg0)) (weights m c) :=
  (dats m 0 c).arrAt_eq_of_cover 2 (conv (m ((c : Thread nD τ).loc main_arg0)) (weights m c))
    (fun t _ => flushed_eq m c t) cover

/-- The kernel's run: it terminates with the result array at the convolution and the arguments unchanged. -/
theorem run : θ_run defs (onTc (τ := τ) (main (F := Ideal))) ⟨m, fun _ => 0, ρ⟩ fun r => ∀ c : Dev nD,
      r.2.mem ((c : Thread nD τ).loc main_v15) = conv (m ((c : Thread nD τ).loc main_arg0)) (weights m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.ConvValue

end
-- ==== Proof.RefConv.lean ====
/-
  The reference computes the three-tap convolution.

  Its last operation is a batched matrix product over the 48 rows: entry (b, o, t) is the sum over k < 48 of the
  weights at (b, k, o) times a stacked array at (b, k, t). The stacked array is the signal cut three times along time —
  from step 8, from step 4 and from step 0 — and joined along the channel axis, so its row 16 s + c at time t is channel c
  of the signal (8 − 4 s) + t (stacked_8, stacked_4, stacked_0: the piece of a concatenation that holds the row, then the
  cut read at an index). Summed in its three blocks of 16 rows, that is the convolution of ThreeTaps.lean. The weights
  stay the reference's own term: nothing about how they are computed is used.
-/
import proofs.«135236_j36833639531048_2_alg».proof.Proof.Gen.ReferenceIdeal.Read
import proofs.«135236_j36833639531048_2_alg».proof.Proof.ThreeTaps

noncomputable section

open scoped BigOperators

namespace Cert.ReferenceIdeal.RefConv

open Cert.ReferenceIdeal Cert.ReferenceIdeal.Read Idealize.ShloMosaic Idealize.ShloMosaic.ValueIdx Cert.ThreeTaps

/-- An index of a cut of the signal, off the joined axis, keeps its coordinates. -/
private theorem off_axis (b : Fin 32) (c : Fin 16) (k : Fin 48) (t : Fin 65536) :
    ∀ a : Fin S32x16x65536.rank, a.cast (rfl : S32x16x65536.rank = S32x48x65536.rank) ≠ (1 : Fin S32x48x65536.rank) →
      ((ix3 b c t : S32x16x65536.Idx) a).val = ((ix3 b k t : S32x48x65536.Idx) (a.cast rfl)).val := fun a ha =>
  match a, ha with
  | ⟨0, _⟩, _ => rfl
  | ⟨1, _⟩, h => absurd (Fin.ext rfl) h
  | ⟨2, _⟩, _ => rfl

/-- Rows 0–15 of the stacked array: the signal 8 steps ahead. -/
theorem stacked_8 (x0 : (⟨S32x16x65544, .f32⟩ : BufTy).Contents (Elt Ideal)) (b : Fin 32) (c : Fin 16) (t : Fin 65536) :
    val_main_v17 (F := Ideal) x0 (ix3 b (row 0 (by omega) c) t) = x0 (ix3 b c (ahead 8 (by omega) t)) := by
  unfold val_main_v17
  refine (concatenate_apply_piece (1 : Fin S32x48x65536.rank) _ _
    (ix3 b (row 0 (by omega) c) t) 0 (by simp) S32x16x65536 (val_main_v14 (F := Ideal) x0) rfl rfl 0 rfl (ix3 b c t)
    (off_axis b c _ t) rfl).trans ?_
  rw [val_main_v14_apply]
  exact congrArg x0 (funext fun a => Fin.ext (by match a with | ⟨0, _⟩ => rfl | ⟨1, _⟩ => rfl | ⟨2, _⟩ => rfl))

/-- Rows 16–31: the signal 4 steps ahead. -/
theorem stacked_4 (x0 : (⟨S32x16x65544, .f32⟩ : BufTy).Contents (Elt Ideal)) (b : Fin 32) (c : Fin 16) (t : Fin 65536) :
    val_main_v17 (F := Ideal) x0 (ix3 b (row 16 (by omega) c) t) = x0 (ix3 b c (ahead 4 (by omega) t)) := by
  unfold val_main_v17
  refine (concatenate_apply_piece (1 : Fin S32x48x65536.rank) _ _
    (ix3 b (row 16 (by omega) c) t) 1 (by simp) S32x16x65536 (val_main_v15 (F := Ideal) x0) rfl rfl 16 rfl (ix3 b c t)
    (off_axis b c _ t) rfl).trans ?_
  rw [val_main_v15_apply]
  exact congrArg x0 (funext fun a => Fin.ext (by match a with | ⟨0, _⟩ => rfl | ⟨1, _⟩ => rfl | ⟨2, _⟩ => rfl))

/-- Rows 32–47: the signal at the output's own time. -/
theorem stacked_0 (x0 : (⟨S32x16x65544, .f32⟩ : BufTy).Contents (Elt Ideal)) (b : Fin 32) (c : Fin 16) (t : Fin 65536) :
    val_main_v17 (F := Ideal) x0 (ix3 b (row 32 (by omega) c) t) = x0 (ix3 b c (ahead 0 (by omega) t)) := by
  unfold val_main_v17
  refine (concatenate_apply_piece (1 : Fin S32x48x65536.rank) _ _
    (ix3 b (row 32 (by omega) c) t) 2 (by simp) S32x16x65536 (val_main_v16 (F := Ideal) x0) rfl rfl 32 rfl (ix3 b c t)
    (off_axis b c _ t) rfl).trans ?_
  rw [val_main_v16_apply]
  exact congrArg x0 (funext fun a => Fin.ext (by
    match a with
    | ⟨0, _⟩ => rfl
    | ⟨1, _⟩ => rfl
    | ⟨2, _⟩ => exact (Nat.zero_add _).symm))

/-- The reference's result is the convolution of the signal with the reference's own weights. -/
theorem result_eq_conv (x0 : (⟨S32x16x65544, .f32⟩ : BufTy).Contents (Elt Ideal)) (x1 : (⟨S32x8, .f32⟩ : BufTy).Contents (Elt Ideal))
    (x2 : (⟨S8x16, .f32⟩ : BufTy).Contents (Elt Ideal)) (x3 : (⟨S16, .f32⟩ : BufTy).Contents (Elt Ideal))
    (x4 : (⟨S16x768, .f32⟩ : BufTy).Contents (Elt Ideal)) (x5 : (⟨S768, .f32⟩ : BufTy).Contents (Elt Ideal)) :
    val_main_v18 (F := Ideal) x0 x1 x2 x3 x4 x5 = conv x0 (val_main_v13 (F := Ideal) x1 x2 x3 x4 x5) := by
  funext i
  obtain ⟨b, o, t, rfl⟩ : ∃ (b : Fin 32) (o : Fin 16) (t : Fin 65536), i = ix3 b o t := ⟨i 0, i 1, i 2, eq_ix3 i⟩
  rw [val_main_v18_apply, conv_apply]
  have el : ∀ k : Fin 48, lidx_main_v18 (ix3 b o t) k = ix3 b k o := fun k => funext fun a => Fin.ext (by
    match a with | ⟨0, _⟩ => rfl | ⟨1, _⟩ => rfl | ⟨2, _⟩ => rfl)
  have er : ∀ k : Fin 48, ridx_main_v18 (ix3 b o t) k = ix3 b k t := fun k => funext fun a => Fin.ext (by
    match a with | ⟨0, _⟩ => rfl | ⟨1, _⟩ => rfl | ⟨2, _⟩ => rfl)
  simp only [el, er]
  exact stacked_eq x0 _ (val_main_v17 (F := Ideal) x0) (stacked_8 x0) (stacked_4 x0) (stacked_0 x0) b o t

end Cert.ReferenceIdeal.RefConv

end
-- ==== Proof.lean ====
/-
  A per-sample dilated causal convolution, computed two ways, is one function on the extended reals.

  Both programs first compute per-sample weights w(b, ·, ·), a 48 × 16 matrix, from the five small arguments by the same
  chain of operations (two small matrix products with bias, a leaky rectifier, a reshape). Then

  * the kernel, once per sample b, multiplies three 16 × 16 column blocks of the transposed weights with the signal
    x(b, ·, ·) read 8, 4 and 0 time steps ahead, each product from a zero accumulator, and adds the three:
        y(b, o, t) = (0 + Σ_c w(b, c, o) x(b, c, 8 + t)) + Σ_c w(b, 16 + c, o) x(b, c, 4 + t) + Σ_c w(b, 32 + c, o) x(b, c, t);
  * the reference stacks the three shifted signals along the channel axis and takes ONE batched matrix product over the
    48 rows:   y(b, o, t) = Σ_{k < 48} w(b, k, o) X(b, k, t),  X(b, 16 s + c, t) = x(b, c, (8 − 4 s) + t).

  A sum of 48 terms is the sum of its three consecutive blocks of 16, and 0 + a = a: laws of any commutative additive
  monoid, so the two results agree at every index whatever infinities occur, and the precondition (finite inputs) is
  never opened. The weights are carried through as one term shared by the two sides.

  The three frames are the generated ones (the reference's is its generated run with the result dropped); the ideal
  pass rewrote nothing, so the kernel is its own idealization; the value claim is assembled from ConvValue.run (the
  kernel's result array is the convolution) and RefConv.result_eq_conv (so is the reference's result).
-/
import proofs.«135236_j36833639531048_2_alg».proof.Defs
import proofs.«135236_j36833639531048_2_alg».proof.Proof.Gen.Kernel
import proofs.«135236_j36833639531048_2_alg».proof.Proof.Gen.Kernel.Skeleton
import proofs.«135236_j36833639531048_2_alg».proof.Proof.Gen.Kernel.Launch
import proofs.«135236_j36833639531048_2_alg».proof.Proof.Gen.Kernel.Points
import proofs.«135236_j36833639531048_2_alg».proof.Proof.Gen.Kernel.Frame
import proofs.«135236_j36833639531048_2_alg».proof.Proof.Gen.KernelIdeal
import proofs.«135236_j36833639531048_2_alg».proof.Proof.Gen.KernelIdeal.Skeleton
import proofs.«135236_j36833639531048_2_alg».proof.Proof.Gen.KernelIdeal.Launch
import proofs.«135236_j36833639531048_2_alg».proof.Proof.Gen.KernelIdeal.Points
import proofs.«135236_j36833639531048_2_alg».proof.Proof.Gen.KernelIdeal.Frame
import proofs.«135236_j36833639531048_2_alg».proof.Proof.Gen.ReferenceIdeal
import proofs.«135236_j36833639531048_2_alg».proof.Proof.Gen.Pre_finite_inputs
import proofs.«135236_j36833639531048_2_alg».proof.Proof.Gen.KernelIdeal.Value
import proofs.«135236_j36833639531048_2_alg».proof.Proof.Gen.ReferenceIdeal.Run
import proofs.«135236_j36833639531048_2_alg».proof.Proof.Gen.ReferenceIdeal.Read
import proofs.«135236_j36833639531048_2_alg».proof.Proof.ConvValue
import proofs.«135236_j36833639531048_2_alg».proof.Proof.RefConv
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the convolution of the signal with the shared
    weights: the kernel's result array by its blocks, the reference's by its sum over the 48 stacked rows. -/
theorem algebraic : Cert.algebraic_KernelIdeal_ReferenceIdeal := by
  intro m ρ m' ρ' _ hagree
  refine ⟨fun c => Cert.ThreeTaps.conv (m ((c : Thread Cert.KernelIdeal.nD Cert.KernelIdeal.τ).loc Cert.KernelIdeal.main_arg0))
    (Cert.KernelIdeal.Weights.weights m c), Cert.KernelIdeal.ConvValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq _ _ _ _ _ _).trans
    ((Cert.ReferenceIdeal.RefConv.result_eq_conv _ _ _ _ _ _).trans ?_)
  obtain ⟨h0, h1, h2, h3, h4, h5⟩ := hagree c
  rw [h0, h1, h2, h3, h4, h5]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
